-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel

variable [Facts]

def fn {F : FTy → Type} [FloatOps F] (main_arg0 : FVec F S8x2048x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  main_v3
-- ==== Kernel.lean ====
abbrev S8x2048x2048 : Shape := ⟨3, ![8, 2048, 2048]⟩
abbrev S_ : Shape := ⟨0, ![]⟩
abbrev S8x2050x2050 : Shape := ⟨3, ![8, 2050, 2050]⟩
abbrev S8x2048x10240 : Shape := ⟨3, ![8, 2048, 10240]⟩
abbrev S1x2050x2050 : Shape := ⟨3, ![1, 2050, 2050]⟩
abbrev S1x64x10240 : Shape := ⟨3, ![1, 64, 10240]⟩
abbrev S1x66x2050 : Shape := ⟨3, ![1, 66, 2050]⟩
abbrev S66x2050 : Shape := ⟨2, ![66, 2050]⟩
abbrev S64x2048 : Shape := ⟨2, ![64, 2048]⟩
abbrev S64x10240 : Shape := ⟨2, ![64, 10240]⟩
abbrev S8x2048x5x2048 : Shape := ⟨4, ![8, 2048, 5, 2048]⟩
abbrev S8x2048x2048x5 : Shape := ⟨4, ![8, 2048, 2048, 5]⟩

abbrev nBuf : Space → Nat
  | .hbm => 7
  | .vmem => 3
  | .smem => 0
  | _ => 0

abbrev bufTy : (tb : Table) → Fin (tcTables nBuf tb) → BufTy
  | .hbm, ⟨0, _⟩ => ⟨S8x2048x2048, .f32⟩
  | .hbm, ⟨1, _⟩ => ⟨S_, .i32⟩
  | .hbm, ⟨2, _⟩ => ⟨S_, .f32⟩
  | .hbm, ⟨3, _⟩ => ⟨S8x2050x2050, .f32⟩
  | .hbm, ⟨4, _⟩ => ⟨S8x2048x10240, .f32⟩
  | .hbm, ⟨5, _⟩ => ⟨S8x2048x5x2048, .f32⟩
  | .hbm, ⟨6, _⟩ => ⟨S8x2048x2048x5, .f32⟩
  | .local _ .vmem, ⟨0, _⟩ => ⟨S1x2050x2050, .f32⟩
  | .local _ .vmem, ⟨1, _⟩ => ⟨S1x64x10240, .f32⟩
  | .local _ .vmem, ⟨2, _⟩ => ⟨S1x64x10240, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c64_i32 : BitVec 32 := 64#32
  let v0 : BitVec 32 := Scalar.muli arg1 c64_i32
  v0
def k0_off1 (i : grid0.Coords) : Fin 3 → Nat :=
  let c0 : Index := 0#32
  let arg1 : BitVec 32 := BitVec.ofNat 32 (i 1).val
  let c64_i32 : BitVec 32 := 64#32
  let v0 : BitVec 32 := Scalar.muli arg1 c64_i32
  let v1 : BitVec 32 := v0
  let v2 : Index := Scalar.indexCast v1
  let c0_0 : Index := 0#32
  ![0, v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2050x2050 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x64x10240 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  pads_S8x2048x2048_S8x2050x2050_000_110_110 : S8x2048x2048.Pads (![0, 1, 1] : Fin 3 → Nat) ![0, 1, 1] ![0, 0, 0] S8x2050x2050
  h_S_ : 0 < S_.numel
  h_S1x66x2050 : 0 < S1x66x2050.numel
  shapeCasts_S1x66x2050_S66x2050 : S1x66x2050.ShapeCasts S66x2050
  slices_S66x2050_o0_1_S64x2048 : S66x2050.Slices ![0, 1] S64x2048
  slices_S66x2050_o2_1_S64x2048 : S66x2050.Slices ![2, 1] S64x2048
  slices_S66x2050_o1_1_S64x2048 : S66x2050.Slices ![1, 1] S64x2048
  slices_S66x2050_o1_0_S64x2048 : S66x2050.Slices ![1, 0] S64x2048
  slices_S66x2050_o1_2_S64x2048 : S66x2050.Slices ![1, 2] S64x2048
  concatenates_S64x2048_S64x2048_S64x2048_S64x2048_S64x2048_S64x10240_d1 : Shape.Concatenates [S64x2048, S64x2048, S64x2048, S64x2048, S64x2048] S64x10240 1
  inb_S1x64x10240_S1x64x10240_0_0_0 : ∀ a, (![0, 0, 0] : Fin 3 → Nat) a + S1x64x10240.size a ≤ S1x64x10240.size a
  h_S1x64x10240 : 0 < S1x64x10240.numel
  shapeCasts_S1x64x10240_S64x10240 : S1x64x10240.ShapeCasts S64x10240
  shapeCasts_S64x10240_S1x64x10240 : S64x10240.ShapeCasts S1x64x10240
  shapeCasts_S8x2048x10240_S8x2048x5x2048 : S8x2048x10240.ShapeCasts S8x2048x5x2048
  transposes_S8x2048x5x2048_S8x2048x2048x5_0_1_3_2 : S8x2048x5x2048.Transposes [0, 1, 3, 2] S8x2048x2048x5
  hrank0 : 0 < grid0.rank
  k0_mult1_dvd : ∀ i : grid0.Coords, 64 ∣ (k0_mult1 i).toNat
  k0_off1_inb : ∀ i : grid0.Coords, ∀ a, (k0_off1 i) a + S1x66x2050.size a ≤ S1x2050x2050.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2050x2050.size a ≤ S8x2050x2050.size a
  hwx0_0 : ∀ i : grid0.Coords, EltTy.bits .f32 = 32 ∨ (Rect.block (s := S8x2050x2050) S1x2050x2050.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x10240.size a ≤ S8x2048x10240.size a
  hwx0_1 : ∀ i : grid0.Coords, EltTy.bits .f32 = 32 ∨ (Rect.block (s := S8x2048x10240) S1x64x10240.size (cc0_transform_1 i) (hinb0_1 i)).WholeWords (EltTy.packing .f32)

variable [Facts₀]

abbrev win0_0 : Pipeline.Window sig grid0 :=
  Pipeline.Window.ofSpec (Memref.whole main_v0) S1x2050x2050.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x10240.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S_ : Shape := ⟨0, ![]⟩
abbrev S8x2050x2050 : Shape := ⟨3, ![8, 2050, 2050]⟩
abbrev S8x2048x2048x1 : Shape := ⟨4, ![8, 2048, 2048, 1]⟩
abbrev S8x2048x2048x5 : Shape := ⟨4, ![8, 2048, 2048, 5]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S_, .i32⟩
  | .hbm, ⟨2, _⟩ => ⟨S_, .f32⟩
  | .hbm, ⟨3, _⟩ => ⟨S8x2050x2050, .f32⟩
  | .hbm, ⟨4, _⟩ => ⟨S8x2048x2048, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048x1, .f32⟩
  | .hbm, ⟨32, _⟩ => ⟨S8x2048x2048x1, .f32⟩
  | .hbm, ⟨33, _⟩ => ⟨S8x2048x2048x1, .f32⟩
  | .hbm, ⟨34, _⟩ => ⟨S8x2048x2048x1, .f32⟩
  | .hbm, ⟨35, _⟩ => ⟨S8x2048x2048x1, .f32⟩
  | .hbm, ⟨36, _⟩ => ⟨S8x2048x2048x5, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]

class Facts₀ : Prop where
  pads_S8x2048x2048_S8x2050x2050_000_110_110 : S8x2048x2048.Pads (![0, 1, 1] : Fin 3 → Nat) ![0, 1, 1] ![0, 0, 0] S8x2050x2050
  h_S_ : 0 < S_.numel
  slices_S8x2050x2050_S8x2048x2048_0_0_1 : S8x2050x2050.Slices ![0, 0, 1] S8x2048x2048
  slices_S8x2050x2050_S8x2048x2048_0_2_1 : S8x2050x2050.Slices ![0, 2, 1] S8x2048x2048
  slices_S8x2050x2050_S8x2048x2048_0_1_0 : S8x2050x2050.Slices ![0, 1, 0] S8x2048x2048
  slices_S8x2050x2050_S8x2048x2048_0_1_2 : S8x2050x2050.Slices ![0, 1, 2] S8x2048x2048
  bcast_S_S8x2048x2048 : S_.BroadcastsInDim S8x2048x2048 (![] : Fin 0 → Fin S8x2048x2048.rank)
  bcast_S8x2048x2048_S8x2048x2048x1_0_1_2 : S8x2048x2048.BroadcastsInDim S8x2048x2048x1 (![0, 1, 2] : Fin 3 → Fin S8x2048x2048x1.rank)
  concatenates_S8x2048x2048x1_S8x2048x2048x1_S8x2048x2048x1_S8x2048x2048x1_S8x2048x2048x1_S8x2048x2048x5_d3 : Shape.Concatenates [S8x2048x2048x1, S8x2048x2048x1, S8x2048x2048x1, S8x2048x2048x1, S8x2048x2048x1] S8x2048x2048x5 3

variable [Facts₀]

class Facts : Prop extends Facts₀ where

variable [Facts]
-- ==== Proof.Stencil.lean ====
/-
  The five spatial features of a zero-padded field, as one function of the PADDED field, index by index.

  A field `u` over (batch, row, column) = (8, 2048, 2048) is padded by one entry on each side of the two spatial axes,
  giving `P` over (8, 2050, 2050) with `P[b, r+1, c+1] = u[b, r, c]`. At the interior point (b, r, c) the stencil reads
  the five padded entries
      up = P[b, r, c+1]    down = P[b, r+2, c+1]    left = P[b, r+1, c]    right = P[b, r+1, c+2]    centre = P[b, r+1, c+1]
  and the five features are, over the extended reals and in this order of operations,
      0 : ((up + down) + left) + right - 4 * centre                         (the five-point Laplacian)
      1 : (1/2) * (right - left)                                             (the central difference along columns)
      2 : (1/2) * (down - up)                                                (the central difference along rows)
      3 : centre * centre
      4 : sqrt ((f1 * f1 + f2 * f2) + eps)                                   (the regularised gradient magnitude)
  with the literals kept as the binary words both programs print. `feature` is the feature as a function of the
  five entries; `featureAt` reads them from `P`; `interleaved` lays the features out as (b, r, c, k) and `planar` as
  (b, r, k * 2048 + c): five planes of a row side by side.
-/
import Idealize.ShloMosaic.PureOps.Ideal
import Idealize.ShloMosaic.Lib.ValueIdx

noncomputable section

namespace Cert.Stencil

open Idealize.ShloMosaic Idealize.ShloMosaic.ValueIdx

/-- The padded field's shape. -/
abbrev Padded : Shape := ⟨3, ![8, 2050, 2050]⟩
/-- The field's shape. -/
abbrev Field : Shape := ⟨3, ![8, 2048, 2048]⟩
/-- Feature planes side by side along a row: (b, r, k * 2048 + c). -/
abbrev Planar : Shape := ⟨3, ![8, 2048, 10240]⟩
/-- Features innermost: (b, r, c, k). -/
abbrev Interleaved : Shape := ⟨4, ![8, 2048, 2048, 5]⟩

/-- The word of `4.0`. -/
abbrev four : Ideal .f32 := Ideal.ofBits .f32 0x40800000#32
/-- The word of `0.5`. -/
abbrev half : Ideal .f32 := Ideal.ofBits .f32 0x3F000000#32
/-- The word nearest `1e-8`. -/
abbrev eps : Ideal .f32 := Ideal.ofBits .f32 0x322BCC77#32

/-- The column difference, halved. -/
def gradX (l r : Ideal .f32) : Ideal .f32 := half * (r - l)
/-- The row difference, halved. -/
def gradY (u d : Ideal .f32) : Ideal .f32 := half * (d - u)

/-- Feature `k` of the five stencil entries. -/
def feature (u d l r z : Ideal .f32) : Fin 5 → Ideal .f32
  | ⟨0, _⟩ => ((u + d) + l) + r - four * z
  | ⟨1, _⟩ => gradX l r
  | ⟨2, _⟩ => gradY u d
  | ⟨3, _⟩ => z * z
  | ⟨4, _⟩ => Ideal.sqrt ((gradX l r * gradX l r + gradY u d * gradY u d) + eps)

/-- Entry (b, r + dr, c + dc) of the padded field, for offsets up to 2. -/
def entry (P : Padded.Idx → Ideal .f32) (b : Fin 8) (r c : Fin 2048) (dr dc : Nat) (hr : dr ≤ 2 := by decide)
    (hc : dc ≤ 2 := by decide) : Ideal .f32 :=
  P (ix3 b (⟨r.val + dr, by have := r.isLt; omega⟩ : Fin 2050) (⟨c.val + dc, by have := c.isLt; omega⟩ : Fin 2050))

/-- Feature `k` at the interior point (b, r, c). -/
def featureAt (P : Padded.Idx → Ideal .f32) (b : Fin 8) (r c : Fin 2048) (k : Fin 5) : Ideal .f32 :=
  feature (entry P b r c 0 1) (entry P b r c 2 1) (entry P b r c 1 0) (entry P b r c 1 2) (entry P b r c 1 1) k

/-- The features, innermost: (b, r, c, k). -/
def interleaved (P : Padded.Idx → Ideal .f32) : Interleaved.Idx → Ideal .f32 := fun i =>
  featureAt P ⟨(i 0).val, (i 0).isLt⟩ ⟨(i 1).val, (i 1).isLt⟩ ⟨(i 2).val, (i 2).isLt⟩ ⟨(i 3).val, (i 3).isLt⟩

/-- The features as five planes side by side along each row: (b, r, k * 2048 + c). -/
def planar (P : Padded.Idx → Ideal .f32) : Planar.Idx → Ideal .f32 := fun i =>
  featureAt P ⟨(i 0).val, (i 0).isLt⟩ ⟨(i 1).val, (i 1).isLt⟩
    ⟨(i 2).val % 2048, Nat.mod_lt _ (by decide)⟩
    ⟨(i 2).val / 2048, by have h : (i 2).val < 10240 := (i 2).isLt; omega⟩

theorem interleaved_ix4 (P : Padded.Idx → Ideal .f32) (b : Fin 8) (r c : Fin 2048) (k : Fin 5) :
    interleaved P (ix4 b r c k) = featureAt P b r c k := rfl

theorem planar_ix3 (P : Padded.Idx → Ideal .f32) (b : Fin 8) (r c : Fin 2048) (k : Fin 5) :
    planar P (ix3 b r (⟨k.val * 2048 + c.val, by have := k.isLt; have := c.isLt; omega⟩ : Fin 10240)) = featureAt P b r c k := by
  unfold planar
  have hc : (k.val * 2048 + c.val) % 2048 = c.val := by have := c.isLt; omega
  have hk : (k.val * 2048 + c.val) / 2048 = k.val := by have := c.isLt; omega
  congr 1
  · exact Fin.ext hc
  · exact Fin.ext hk

end Cert.Stencil

end
-- ==== Proof.Payload.lean ====
/-
  What the kernel body stores, entry by entry.

  The body loads a window `v` of 66 rows and all 2050 columns of the padded field (one leading unit axis), takes the
  five 64 x 2048 shifted views of it, computes the five feature planes pointwise in the order of operations of
  `Stencil.feature`, and lays the planes side by side along the columns: entry (0, r, k * 2048 + c) of what it stores is
  feature `k` of the five window entries around (r + 1, c + 1).
-/
import proofs.«137811_j65764539236415_2_alg».proof.Proof.Gen.KernelIdeal.Skeleton
import proofs.«137811_j65764539236415_2_alg».proof.Proof.Stencil
import Idealize.ShloMosaic.Lib.Pipeline.Value
import Idealize.ShloMosaic.Lib.ValueLayout

noncomputable section

namespace Cert.KernelIdeal.BodyValue

open Cert.KernelIdeal Cert.KernelIdeal.Gen Idealize.ShloMosaic Idealize.ShloMosaic.ValueIdx Cert.Stencil

/-- Five 64 x 2048 planes joined along the columns: entry (r, k * 2048 + c) is plane `k` at (r, c). -/
theorem planes_apply {α : Type} (y0 y1 y2 y3 y4 : S64x2048.Idx → α)
    (h : Shape.Concatenates ([(⟨S64x2048, y0⟩ : (s : Shape) × (s.Idx → α)), ⟨S64x2048, y1⟩, ⟨S64x2048, y2⟩,
      ⟨S64x2048, y3⟩, ⟨S64x2048, y4⟩].map (·.1)) S64x10240 1)
    (r : Fin 64) (c : Fin 2048) (k : Fin 5) :
    concatenate S64x10240 1 [⟨S64x2048, y0⟩, ⟨S64x2048, y1⟩, ⟨S64x2048, y2⟩, ⟨S64x2048, y3⟩, ⟨S64x2048, y4⟩] h
        (ix2 r (⟨k.val * 2048 + c.val, by have := k.isLt; have := c.isLt; omega⟩ : Fin 10240))
      = (match k with | ⟨0, _⟩ => y0 | ⟨1, _⟩ => y1 | ⟨2, _⟩ => y2 | ⟨3, _⟩ => y3 | ⟨4, _⟩ => y4) (ix2 r c) := by
  have hi : ∀ (j : Fin 10240) (b' : Fin S64x2048.rank), b'.cast (rfl : S64x2048.rank = S64x10240.rank) ≠ (1 : Fin 2) →
      ((ix2 r c : S64x2048.Idx) b').val = ((ix2 r j : S64x10240.Idx) (b'.cast rfl)).val := fun j b' =>
    match b' with
    | ⟨0, _⟩ => fun _ => rfl
    | ⟨1, _⟩ => fun hne => absurd rfl hne
  match k with
  | ⟨0, _⟩ => exact concatenate_apply_piece 1 _ h _ 0 (by show 0 < 5; omega) S64x2048 y0 rfl rfl 0 rfl _ (hi _) (by show 0 + c.val = 0 * 2048 + c.val; omega)
  | ⟨1, _⟩ => exact concatenate_apply_piece 1 _ h _ 1 (by show 1 < 5; omega) S64x2048 y1 rfl rfl 2048 rfl _ (hi _) (by show 2048 + c.val = 1 * 2048 + c.val; omega)
  | ⟨2, _⟩ => exact concatenate_apply_piece 1 _ h _ 2 (by show 2 < 5; omega) S64x2048 y2 rfl rfl 4096 rfl _ (hi _) (by show 4096 + c.val = 2 * 2048 + c.val; omega)
  | ⟨3, _⟩ => exact concatenate_apply_piece 1 _ h _ 3 (by show 3 < 5; omega) S64x2048 y3 rfl rfl 6144 rfl _ (hi _) (by show 6144 + c.val = 3 * 2048 + c.val; omega)
  | ⟨4, _⟩ => exact concatenate_apply_piece 1 _ h _ 4 (by show 4 < 5; omega) S64x2048 y4 rfl rfl 8192 rfl _ (hi _) (by show 8192 + c.val = 4 * 2048 + c.val; omega)

/-- Entry (r + dr, c + dc) of the loaded window. -/
def windowEntry (v : Vec Ideal S1x66x2050 .f32) (r : Fin 64) (c : Fin 2048) (dr dc : Nat) (hr : dr ≤ 2 := by decide)
    (hc : dc ≤ 2 := by decide) : Ideal .f32 :=
  v (ix3 (0 : Fin 1) (⟨r.val + dr, by have := r.isLt; omega⟩ : Fin 66) (⟨c.val + dc, by have := c.isLt; omega⟩ : Fin 2050))

/-- The 64 x 2048 view of the window at offsets (dr, dc) reads, at (r, c), its entry (r + dr, c + dc). -/
theorem view_apply (v : Vec Ideal S1x66x2050 .f32) (dr dc : Nat) (hr : dr ≤ 2) (hc : dc ≤ 2)
    (hcast : S1x66x2050.ShapeCasts S66x2050) (h : S66x2050.Slices ![dr, dc] S64x2048) (r : Fin 64) (c : Fin 2048) :
    extractStridedSlice S64x2048 ![dr, dc] (shapeCast S66x2050 v hcast) h (ix2 r c) = windowEntry v r c dr dc hr hc := by
  unfold windowEntry
  refine (extractStridedSlice_apply ![dr, dc] _ h (ix2 r c)
    (ix2 (⟨r.val + dr, by have := r.isLt; omega⟩ : Fin 66) (⟨c.val + dc, by have := c.isLt; omega⟩ : Fin 2050)) fun a => ?_).trans
    (shapeCast_1ab_ab_apply v hcast _ _)
  match a with
  | ⟨0, _⟩ => show r.val + dr = dr + r.val; omega
  | ⟨1, _⟩ => show c.val + dc = dc + c.val; omega

/-- **The stored block, entry by entry**: (0, r, k * 2048 + c) is feature `k` of the window entries around (r + 1, c + 1). -/
theorem payload_apply (v : Vec Ideal S1x66x2050 .f32) (r : Fin 64) (c : Fin 2048) (k : Fin 5) :
    k0_pay1 (F := Ideal) v (ix3 (0 : Fin 1) r (⟨k.val * 2048 + c.val, by have := k.isLt; have := c.isLt; omega⟩ : Fin 10240))
      = feature (windowEntry v r c 0 1) (windowEntry v r c 2 1) (windowEntry v r c 1 0) (windowEntry v r c 1 2)
          (windowEntry v r c 1 1) k := by
  have hu := view_apply v 0 1 (by decide) (by decide) shapeCasts_S1x66x2050_S66x2050 slices_S66x2050_o0_1_S64x2048 r c
  have hd := view_apply v 2 1 (by decide) (by decide) shapeCasts_S1x66x2050_S66x2050 slices_S66x2050_o2_1_S64x2048 r c
  have hz := view_apply v 1 1 (by decide) (by decide) shapeCasts_S1x66x2050_S66x2050 slices_S66x2050_o1_1_S64x2048 r c
  have hl := view_apply v 1 0 (by decide) (by decide) shapeCasts_S1x66x2050_S66x2050 slices_S66x2050_o1_0_S64x2048 r c
  have hr := view_apply v 1 2 (by decide) (by decide) shapeCasts_S1x66x2050_S66x2050 slices_S66x2050_o1_2_S64x2048 r c
  rw [← hu, ← hd, ← hz, ← hl, ← hr]
  unfold k0_pay1
  refine (shapeCast_ab_1ab_apply _ _ (0 : Fin 1) r _).trans ?_
  refine (planes_apply _ _ _ _ _ _ r c k).trans ?_
  match k with
  | ⟨0, _⟩ => rfl
  | ⟨1, _⟩ => rfl
  | ⟨2, _⟩ => rfl
  | ⟨3, _⟩ => rfl
  | ⟨4, _⟩ => rfl

end Cert.KernelIdeal.BodyValue

end
-- ==== Proof.Blocks.lean ====
/-
  What the kernel's launch leaves in its output array: the planar features of the padded field it was launched on.

  Grid point `t` = (b, h) (b = t / 32 over the batch, h = t mod 32 over the row tiles) stages batch `b` of the padded
  field whole, loads rows 64 h .. 64 h + 65 of it, and writes back rows 64 h .. 64 h + 63 of batch `b` of the output.
  Entry (r, k * 2048 + c) of the written block is feature `k` of the loaded window around (r + 1, c + 1), which is the
  padded field around (b, 64 h + r + 1, c + 1): the block is the restriction of `Stencil.planar`. The 8 x 32 blocks
  tile the output array, so it ends holding `Stencil.planar` of the padded field.
-/
import proofs.«137811_j65764539236415_2_alg».proof.Proof.Gen.KernelIdeal.Frame
import proofs.«137811_j65764539236415_2_alg».proof.Proof.Payload
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.RegionValue

open Cert.KernelIdeal Cert.KernelIdeal.Gen Cert.KernelIdeal.BodyValue Idealize.ShloMosaic.ValueIdx Cert.Stencil

theorem zero3 : (![0, 0, 0] : Fin 3 → Nat) = fun _ => 0 := funext fun a => by fin_cases a <;> rfl

/-- What the body leaves in the output's staging buffer: its one covering store's payload of the rows it loaded. -/
theorem body_out {F : FTy → Type} [FloatOps F] (c : Dev nD) (i : grid0.Coords) (a2 : Memref sig .tc .vmem S1x2050x2050 .f32)
    (h2 : a2.IsWhole) (a3 : Memref sig .tc .vmem S1x64x10240 .f32) (h3 : a3.IsWhole) (x0 : Vec F S1x2050x2050 .f32) :
    out0_A_1 c i a2 h2 a3 h3 x0
      = k0_pay1 (View.ld x0 (Rect.unit (s := S1x2050x2050) (k0_off1 i) S1x66x2050.size (k0_off1_inb i))) := by
  unfold out0_A_1
  rw [View.read_writes_eq_canon _ _ _ (cover0_A_1 c i a2 h2 a3 h3 x0)]
  unfold kernelRun0_A
  dsimp only
  rw [View.canon_unit_zero zero3]
  simp only [View.readAt_eq_ld, h2.read_unread]

/-- The printed index maps and the body's load offsets over the grid: point `t` is batch `t / 32`, row tile `t mod 32`. -/
theorem grid_facts : ∀ t : Fin cfg0.N,
    win0_0.index t (0 : Fin 3) = t.val / 32 ∧ win0_0.index t (1 : Fin 3) = 0 ∧ win0_0.index t (2 : Fin 3) = 0
    ∧ win0_1.index t (0 : Fin 3) = t.val / 32 ∧ win0_1.index t (1 : Fin 3) = t.val % 32 ∧ win0_1.index t (2 : Fin 3) = 0
    ∧ k0_off1 (grid0.coords t) = ![0, 64 * (t.val % 32), 0] :=
  (by decide +kernel : ∀ t : Fin grid0.N, _)

variable (m : (ℓ : Loc nD τ sig) → Buf (Elt Ideal) ℓ)

/-- The padded field as the launch finds it. -/
abbrev P (c : Dev nD) : S8x2050x2050.Idx → Ideal .f32 := V m c main_v0

/-- An entry of the rows the body loads from a staged batch `X` of a padded field `Q` (batch `b`, rows from `64 h`) is
    the padded field's entry `64 h` rows further down. -/
theorem window_entry (X : Vec Ideal S1x2050x2050 .f32) (Q : S8x2050x2050.Idx → Ideal .f32) (b : Fin 8) (h : Fin 32)
    (hX : ∀ y : S1x2050x2050.Idx, X y = Q (ix3 b (⟨(y 1).val, (y 1).isLt⟩ : Fin 2050) (⟨(y 2).val, (y 2).isLt⟩ : Fin 2050)))
    (off : Fin 3 → Nat) (hoff : off = ![0, 64 * h.val, 0]) (inb : ∀ a, off a + S1x66x2050.size a ≤ S1x2050x2050.size a)
    (r : Fin 64) (c : Fin 2048) (dr dc : Nat) (hr : dr ≤ 2) (hc : dc ≤ 2) :
    windowEntry (View.ld X (Rect.unit (s := S1x2050x2050) off S1x66x2050.size inb)) r c dr dc hr hc
      = entry Q b (⟨64 * h.val + r.val, by have := h.isLt; have := r.isLt; omega⟩ : Fin 2048) c dr dc hr hc := by
  subst hoff
  unfold windowEntry entry
  show X _ = _
  rw [hX]
  refine congrArg Q (funext fun a => ?_)
  match a with
  | ⟨0, _⟩ => rfl
  | ⟨1, _⟩ => exact Fin.ext (by show 64 * h.val + 1 * (r.val + dr) = 64 * h.val + r.val + dr; omega)
  | ⟨2, _⟩ => exact Fin.ext (by show 0 + 1 * (c.val + dc) = c.val + dc; omega)

/-- So the stored block's entry (0, r, k * 2048 + c) is feature `k` of the padded field at (b, 64 h + r, c). -/
theorem block_entry (X : Vec Ideal S1x2050x2050 .f32) (Q : S8x2050x2050.Idx → Ideal .f32) (b : Fin 8) (h : Fin 32)
    (hX : ∀ y : S1x2050x2050.Idx, X y = Q (ix3 b (⟨(y 1).val, (y 1).isLt⟩ : Fin 2050) (⟨(y 2).val, (y 2).isLt⟩ : Fin 2050)))
    (off : Fin 3 → Nat) (hoff : off = ![0, 64 * h.val, 0]) (inb : ∀ a, off a + S1x66x2050.size a ≤ S1x2050x2050.size a)
    (r : Fin 64) (c : Fin 2048) (k : Fin 5) :
    k0_pay1 (F := Ideal) (View.ld X (Rect.unit (s := S1x2050x2050) off S1x66x2050.size inb))
        (ix3 (0 : Fin 1) r (⟨k.val * 2048 + c.val, by have := k.isLt; have := c.isLt; omega⟩ : Fin 10240))
      = featureAt Q b (⟨64 * h.val + r.val, by have := h.isLt; have := r.isLt; omega⟩ : Fin 2048) c k := by
  rw [payload_apply]
  unfold featureAt
  rw [window_entry X Q b h hX off hoff inb r c 0 1, window_entry X Q b h hX off hoff inb r c 2 1,
    window_entry X Q b h hX off hoff inb r c 1 0, window_entry X Q b h hX off hoff inb r c 1 2,
    window_entry X Q b h hX off hoff inb r c 1 1]

/-- **What point `t` writes back is block `t` of the planar features of the padded field.** -/
theorem flushed_eq (c : Dev nD) (t : Fin cfg0.N) :
    (dats m 0 c).flushed 1 t = ((cfg0.win 1).blk t).view.read (Elt Ideal) (planar (P m c)) := by
  show (cfg0.win 1).cut (grid0.coords t) ((dats m 0 c).after 1 t) = _
  rw [after0_1]
  unfold outsAt0
  rw [body_out]
  obtain ⟨e00, e01, e02, e10, e11, e12, eoff⟩ := grid_facts t
  have hN : cfg0.N = 256 := N_0
  have ht : t.val < cfg0.N := t.isLt
  -- the staged batch is batch `t / 32` of the padded field
  have hX : ∀ y : S1x2050x2050.Idx, iblk m c 0 t y
      = P m c (ix3 (⟨t.val / 32, by omega⟩ : Fin 8) (⟨(y 1).val, (y 1).isLt⟩ : Fin 2050) (⟨(y 2).val, (y 2).isLt⟩ : Fin 2050)) := by
    intro y
    obtain ⟨u, p, q, rfl⟩ : ∃ (u : Fin 1) (p q : Fin 2050), y = ix3 u p q := ⟨y 0, y 1, y 2, eq_ix3 y⟩
    show V m c main_v0 (((cfg0.win 0).blk t).view.emb (ix3 u p q)) = _
    refine congrArg (V m c main_v0) (funext fun a => ?_)
    match a with
    | ⟨0, _⟩ => exact Fin.ext (by show win0_0.index t (0 : Fin 3) * 1 + 1 * u.val = t.val / 32; have := u.isLt; rw [e00]; omega)
    | ⟨1, _⟩ => exact Fin.ext (by show win0_0.index t (1 : Fin 3) * 2050 + 1 * p.val = p.val; rw [e01]; omega)
    | ⟨2, _⟩ => exact Fin.ext (by show win0_0.index t (2 : Fin 3) * 2050 + 1 * q.val = q.val; rw [e02]; omega)
  have key : ∀ j : S1x64x10240.Idx,
      k0_pay1 (F := Ideal) (View.ld (iblk m c 0 t) (Rect.unit (s := S1x2050x2050) (k0_off1 (grid0.coords t)) S1x66x2050.size (k0_off1_inb (grid0.coords t)))) j
        = planar (P m c) (((cfg0.win 1).blk t).view.emb j) := by
    intro j
    obtain ⟨u, r, q, rfl⟩ : ∃ (u : Fin 1) (r : Fin 64) (q : Fin 10240), j = ix3 u r q := ⟨j 0, j 1, j 2, eq_ix3 j⟩
    obtain rfl : u = 0 := Subsingleton.elim _ _
    have hq : q = (⟨(⟨q.val / 2048, by have := q.isLt; omega⟩ : Fin 5).val * 2048 + (⟨q.val % 2048, Nat.mod_lt _ (by decide)⟩ : Fin 2048).val,
        by have := q.isLt; show q.val / 2048 * 2048 + q.val % 2048 < 10240; omega⟩ : Fin 10240) :=
      Fin.ext (by show q.val = q.val / 2048 * 2048 + q.val % 2048; omega)
    rw [hq]
    refine (block_entry (iblk m c 0 t) (P m c) ⟨t.val / 32, by omega⟩ ⟨t.val % 32, Nat.mod_lt _ (by decide)⟩ hX _ eoff _ r _ _).trans ?_
    rw [← planar_ix3]
    refine congrArg (planar (P m c)) (funext fun a => ?_)
    match a with
    | ⟨0, _⟩ => exact Fin.ext (by show t.val / 32 = win0_1.index t (0 : Fin 3) * 1 + 1 * 0; rw [e10]; omega)
    | ⟨1, _⟩ => exact Fin.ext (by show 64 * (t.val % 32) + r.val = win0_1.index t (1 : Fin 3) * 64 + 1 * r.val; rw [e11]; omega)
    | ⟨2, _⟩ => exact Fin.ext (by show q.val / 2048 * 2048 + q.val % 2048 = win0_1.index t (2 : Fin 3) * 10240 + 1 * (q.val / 2048 * 2048 + q.val % 2048); rw [e12]; omega)
  funext j
  exact key j

/-- An index of the output array is in point `t`'s block iff each coordinate is in the block's range on its axis. -/
theorem mem_block (t : Fin cfg0.N) (i : S8x2048x10240.Idx) :
    i ∈ ((cfg0.win 1).blk t).view.set ↔ ∀ a : Fin 3, win0_1.index t a * S1x64x10240.size a ≤ (i a).val
      ∧ (i a).val < win0_1.index t a * S1x64x10240.size a + S1x64x10240.size a := by
  show i ∈ ((View.whole main_v1).slice (win0_1.rect t)).set ↔ _
  rw [View.set_slice_whole, Rect.mem_set_unit]
  exact Iff.rfl

/-- **The output array after the launch**: the blocks tile it (row `ρ` of batch `b` is in the block of point
    `32 b + ρ / 64`), so it holds the planar features of the padded field. -/
theorem region_result (c : Dev nD) : (dats m 0 c).arrAt 1 cfg0.N = planar (P m c) :=
  (dats m 0 c).arrAt_eq_of_cover 1 (planar (P m c)) (fun t _ => flushed_eq m c t) fun i => by
    obtain ⟨b, ρ, q, rfl⟩ : ∃ (b : Fin 8) (ρ : Fin 2048) (q : Fin 10240), i = ix3 b ρ q := ⟨i 0, i 1, i 2, eq_ix3 i⟩
    have hN : cfg0.N = 256 := N_0
    have hb := b.isLt
    have hρ := ρ.isLt
    have hq := q.isLt
    obtain ⟨t, ht⟩ : ∃ t : Fin cfg0.N, t.val = b.val * 32 + ρ.val / 64 := ⟨⟨b.val * 32 + ρ.val / 64, by omega⟩, rfl⟩
    obtain ⟨-, -, -, e10, e11, e12, -⟩ := grid_facts t
    refine ⟨t, flush0_1 t, (mem_block t _).mpr fun a => ?_⟩
    match a with
    | ⟨0, _⟩ => show win0_1.index t (0 : Fin 3) * 1 ≤ b.val ∧ b.val < win0_1.index t (0 : Fin 3) * 1 + 1; rw [e10]; omega
    | ⟨1, _⟩ => show win0_1.index t (1 : Fin 3) * 64 ≤ ρ.val ∧ ρ.val < win0_1.index t (1 : Fin 3) * 64 + 64; rw [e11]; omega
    | ⟨2, _⟩ => show win0_1.index t (2 : Fin 3) * 10240 ≤ q.val ∧ q.val < win0_1.index t (2 : Fin 3) * 10240 + 10240; rw [e12]; omega

end Cert.KernelIdeal.RegionValue

end
-- ==== Proof.Relayout.lean ====
/-
  From planes side by side to features innermost.

  Reading a row of five planes (b, r, k * 2048 + c) as (b, r, k, c) — the same row-major position — and exchanging the
  last two axes gives (b, r, c, k): the planar features re-laid this way are the interleaved features.
-/
import proofs.«137811_j65764539236415_2_alg».proof.Proof.Stencil
import Idealize.ShloMosaic.Lib.Pipeline.Value

noncomputable section

namespace Cert.Stencil

open Idealize.ShloMosaic Idealize.ShloMosaic.ValueIdx

/-- Planes as their own axis: (b, r, k, c). -/
abbrev PlaneAxis : Shape := ⟨4, ![8, 2048, 5, 2048]⟩

theorem relayout (P : Padded.Idx → Ideal .f32) (hc : Planar.ShapeCasts PlaneAxis)
    (ht : PlaneAxis.Transposes [0, 1, 3, 2] Interleaved) :
    transpose Interleaved [0, 1, 3, 2] (shapeCast PlaneAxis (planar P) hc) ht = interleaved P := by
  funext i
  obtain ⟨b, r, c, k, rfl⟩ : ∃ (b : Fin 8) (r c : Fin 2048) (k : Fin 5), i = ix4 b r c k := ⟨i 0, i 1, i 2, i 3, eq_ix4 i⟩
  rw [interleaved_ix4, ← planar_ix3]
  refine (transpose_apply [0, 1, 3, 2] _ ht (ix4 b r c k) (ix4 b r k c) fun a => ?_).trans
    (shapeCast_apply (planar P) hc (ix4 b r k c) _ ?_)
  · match a with
    | ⟨0, _⟩ => rfl
    | ⟨1, _⟩ => rfl
    | ⟨2, _⟩ => rfl
    | ⟨3, _⟩ => rfl
  · rw [Shape.rowMajor_val_three, Shape.rowMajor_val_four]
    show (b.val * 2048 + r.val) * 10240 + (k.val * 2048 + c.val) = ((b.val * 2048 + r.val) * 5 + k.val) * 2048 + c.val
    omega

end Cert.Stencil

end
-- ==== Proof.KernelRun.lean ====
/-
  The kernel program, run: its result is the interleaved features of the zero-padded argument.

  Before the launch the host pads the argument; the launch leaves the planar features of that padded field in its
  output array (`RegionValue.region_result`); after it the host reads each row of planes as (plane, column) and
  exchanges the two, which gives the interleaved features (`Stencil.relayout`).
-/
import proofs.«137811_j65764539236415_2_alg».proof.Proof.Blocks
import proofs.«137811_j65764539236415_2_alg».proof.Proof.Relayout
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.ProgramValue

open Cert.KernelIdeal Cert.KernelIdeal.Gen Cert.KernelIdeal.RegionValue Idealize.ShloMosaic.ValueIdx Cert.Stencil

variable (m : (ℓ : Loc nD τ sig) → Buf (Elt Ideal) ℓ) (ρ : Dev nD → PrngReg)

/-- The padded field the launch finds is the host's pad of the argument (by the converted integer zero). -/
theorem padded_eq (c : Dev nD) :
    P m c = pad S8x2050x2050 ![0, 1, 1] ![0, 1, 1] ![0, 0, 0] (m ((c : Thread nD τ).loc main_arg0))
      (sitofp .f32 (constantI S_ 32 0#32) : FVec Ideal S_ .f32) pads_S8x2048x2048_S8x2050x2050_000_110_110 h_S_ := by
  dsimp only [P, V, V0]
  simp only [hostOps0, hostOps0_1, List.flatten_cons, List.flatten_nil, List.append_nil, List.cons_append, List.nil_append]
  after_results
  rfl

/-- The program's result after the host operations that follow the launch. -/
theorem tail_result (c : Dev nD) :
    Pipeline.afterTail₀ cfgs (dats m) 0 (V0 m) [hostOps1] c main_v3 = interleaved (P m c) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v1)
      = planar (P m c) :=
    (Pipeline.withArrays_arr spec0 launch0.win.arr_inj c _ _ 1).trans (region_result m c)
  show transpose S8x2048x2048x5 [0, 1, 3, 2] (shapeCast S8x2048x5x2048
      (Pipeline.withArrays (cfgs 0).spec c (V0 m c) (fun w => (dats m 0 c).arrAt w (cfgs 0).N) (Proc.devRef .tc main_v1))
      shapeCasts_S8x2048x10240_S8x2048x5x2048) transposes_S8x2048x5x2048_S8x2048x2048x5_0_1_3_2 = _
  rw [e]
  exact relayout (P m c) _ _

/-- **The kernel program's run, read**: every weakly fair execution terminates with the result at the interleaved
    features of the padded argument, the argument unchanged. -/
theorem run : θ_run defs (onTc (τ := τ) (main (F := Ideal))) ⟨m, fun _ => 0, ρ⟩ fun r => ∀ c : Dev nD,
      r.2.mem ((c.tc : Thread nD τ).loc main_v3) = interleaved (P m c)
      ∧ r.2.mem ((c.tc : Thread nD τ).loc main_arg0) = m ((c.tc : Thread nD τ).loc main_arg0) :=
  (θ_run defs _ _).mono (fun _ h c =>
      ⟨((h c).2 main_v3 (Pipeline.mem_restRefs_of main_v3 (by decide) (by decide))).trans (tail_result m c),
        ((h c).2 main_arg0 (Pipeline.mem_restRefs_of main_arg0 (by decide) (by decide))).trans (W_main_arg0 m (dats m) c)⟩)
    (run_main m ρ)

end Cert.KernelIdeal.ProgramValue

end
-- ==== Proof.RefFeatures.lean ====
/-
  The reference computes the interleaved features of its own padded field.

  Its four shifted slices of the padded field `P` read, at (b, r, c), the entries `P[b, r, c+1]`, `P[b, r+2, c+1]`,
  `P[b, r+1, c]` and `P[b, r+1, c+2]`; the field itself at (b, r, c) is `P[b, r+1, c+1]` (an interior entry of a pad
  is the operand's); the five feature arrays are then pointwise in the same order of operations as `Stencil.feature`,
  each is given a trailing unit axis, and the five are joined along it: entry (b, r, c, k) of the result is feature `k`
  at (b, r, c).
-/
import proofs.«137811_j65764539236415_2_alg».proof.Proof.Gen.ReferenceIdeal.Read
import proofs.«137811_j65764539236415_2_alg».proof.Proof.Stencil
import Idealize.ShloMosaic.Lib.KernelVsHost
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx Cert.Stencil

variable (x : S8x2048x2048.Idx → Ideal .f32)

/-- The reference's padded field. -/
abbrev P : S8x2050x2050.Idx → Ideal .f32 := val_main_v0 (F := Ideal) x

/-- Joining five arrays with a trailing unit axis along that axis: entry (b, r, c, k) is array `k` at (b, r, c, 0). -/
theorem join_apply {α : Type} (y0 y1 y2 y3 y4 : S8x2048x2048x1.Idx → α)
    (h : Shape.Concatenates ([(⟨S8x2048x2048x1, y0⟩ : (s : Shape) × (s.Idx → α)), ⟨S8x2048x2048x1, y1⟩, ⟨S8x2048x2048x1, y2⟩,
      ⟨S8x2048x2048x1, y3⟩, ⟨S8x2048x2048x1, y4⟩].map (·.1)) S8x2048x2048x5 3)
    (b : Fin 8) (r c : Fin 2048) (k : Fin 5) :
    concatenate S8x2048x2048x5 3 [⟨S8x2048x2048x1, y0⟩, ⟨S8x2048x2048x1, y1⟩, ⟨S8x2048x2048x1, y2⟩,
      ⟨S8x2048x2048x1, y3⟩, ⟨S8x2048x2048x1, y4⟩] h (ix4 b r c k)
      = (match k with | ⟨0, _⟩ => y0 | ⟨1, _⟩ => y1 | ⟨2, _⟩ => y2 | ⟨3, _⟩ => y3 | ⟨4, _⟩ => y4) (ix4 b r c (0 : Fin 1)) := by
  have hi : ∀ (k : Fin 5) (b' : Fin S8x2048x2048x1.rank), b'.cast (rfl : S8x2048x2048x1.rank = S8x2048x2048x5.rank) ≠ (3 : Fin 4) →
      ((ix4 b r c (0 : Fin 1) : S8x2048x2048x1.Idx) b').val = ((ix4 b r c k : S8x2048x2048x5.Idx) (b'.cast rfl)).val := fun k b' =>
    match b' with
    | ⟨0, _⟩ => fun _ => rfl
    | ⟨1, _⟩ => fun _ => rfl
    | ⟨2, _⟩ => fun _ => rfl
    | ⟨3, _⟩ => fun hne => absurd rfl hne
  match k with
  | ⟨0, _⟩ => exact concatenate_apply_piece 3 _ h _ 0 (by show 0 < 5; omega) S8x2048x2048x1 y0 rfl rfl 0 rfl _ (hi _) rfl
  | ⟨1, _⟩ => exact concatenate_apply_piece 3 _ h _ 1 (by show 1 < 5; omega) S8x2048x2048x1 y1 rfl rfl 1 rfl _ (hi _) rfl
  | ⟨2, _⟩ => exact concatenate_apply_piece 3 _ h _ 2 (by show 2 < 5; omega) S8x2048x2048x1 y2 rfl rfl 2 rfl _ (hi _) rfl
  | ⟨3, _⟩ => exact concatenate_apply_piece 3 _ h _ 3 (by show 3 < 5; omega) S8x2048x2048x1 y3 rfl rfl 3 rfl _ (hi _) rfl
  | ⟨4, _⟩ => exact concatenate_apply_piece 3 _ h _ 4 (by show 4 < 5; omega) S8x2048x2048x1 y4 rfl rfl 4 rfl _ (hi _) rfl

/-- An array given a trailing unit axis is read at (b, r, c, 0) at its operand's (b, r, c): one statement per feature. -/
theorem unit_axis_idx0 (b : Fin 8) (r c : Fin 2048) : idx_main_v24 (ix4 b r c (0 : Fin 1)) = ix3 b r c := by
  funext a; match a with | ⟨0, _⟩ => rfl | ⟨1, _⟩ => rfl | ⟨2, _⟩ => rfl
theorem unit_axis_idx1 (b : Fin 8) (r c : Fin 2048) : idx_main_v25 (ix4 b r c (0 : Fin 1)) = ix3 b r c := by
  funext a; match a with | ⟨0, _⟩ => rfl | ⟨1, _⟩ => rfl | ⟨2, _⟩ => rfl
theorem unit_axis_idx2 (b : Fin 8) (r c : Fin 2048) : idx_main_v26 (ix4 b r c (0 : Fin 1)) = ix3 b r c := by
  funext a; match a with | ⟨0, _⟩ => rfl | ⟨1, _⟩ => rfl | ⟨2, _⟩ => rfl
theorem unit_axis_idx3 (b : Fin 8) (r c : Fin 2048) : idx_main_v27 (ix4 b r c (0 : Fin 1)) = ix3 b r c := by
  funext a; match a with | ⟨0, _⟩ => rfl | ⟨1, _⟩ => rfl | ⟨2, _⟩ => rfl
theorem unit_axis_idx4 (b : Fin 8) (r c : Fin 2048) : idx_main_v28 (ix4 b r c (0 : Fin 1)) = ix3 b r c := by
  funext a; match a with | ⟨0, _⟩ => rfl | ⟨1, _⟩ => rfl | ⟨2, _⟩ => rfl

/-- The slice `[0:8, 0:2048, 1:2049]` of the padded field at (b, r, c) is the entry above the centre. -/
theorem up_apply (b : Fin 8) (r c : Fin 2048) : val_main_v1 (F := Ideal) x (ix3 b r c) = entry (P x) b r c 0 1 := by
  rw [val_main_v1_apply]; unfold entry
  refine congrArg (P x) (funext fun a => ?_)
  match a with
  | ⟨0, _⟩ => rfl
  | ⟨1, _⟩ => exact Fin.ext (by show r.val = r.val + 0; omega)
  | ⟨2, _⟩ => exact Fin.ext (by show 1 + c.val = c.val + 1; omega)

/-- The slice `[0:8, 2:2050, 1:2049]` at (b, r, c) is the entry below the centre. -/
theorem down_apply (b : Fin 8) (r c : Fin 2048) : val_main_v2 (F := Ideal) x (ix3 b r c) = entry (P x) b r c 2 1 := by
  rw [val_main_v2_apply]; unfold entry
  refine congrArg (P x) (funext fun a => ?_)
  match a with
  | ⟨0, _⟩ => rfl
  | ⟨1, _⟩ => exact Fin.ext (by show 2 + r.val = r.val + 2; omega)
  | ⟨2, _⟩ => exact Fin.ext (by show 1 + c.val = c.val + 1; omega)

/-- The slice `[0:8, 1:2049, 0:2048]` at (b, r, c) is the entry left of the centre. -/
theorem left_apply (b : Fin 8) (r c : Fin 2048) : val_main_v3 (F := Ideal) x (ix3 b r c) = entry (P x) b r c 1 0 := by
  rw [val_main_v3_apply]; unfold entry
  refine congrArg (P x) (funext fun a => ?_)
  match a with
  | ⟨0, _⟩ => rfl
  | ⟨1, _⟩ => exact Fin.ext (by show 1 + r.val = r.val + 1; omega)
  | ⟨2, _⟩ => exact Fin.ext (by show c.val = c.val + 0; omega)

/-- The slice `[0:8, 1:2049, 2:2050]` at (b, r, c) is the entry right of the centre. -/
theorem right_apply (b : Fin 8) (r c : Fin 2048) : val_main_v4 (F := Ideal) x (ix3 b r c) = entry (P x) b r c 1 2 := by
  rw [val_main_v4_apply]; unfold entry
  refine congrArg (P x) (funext fun a => ?_)
  match a with
  | ⟨0, _⟩ => rfl
  | ⟨1, _⟩ => exact Fin.ext (by show 1 + r.val = r.val + 1; omega)
  | ⟨2, _⟩ => exact Fin.ext (by show 2 + c.val = c.val + 2; omega)

/-- The field at (b, r, c) is the padded field's centre entry: an interior entry of a pad is the operand's. -/
theorem centre_apply (b : Fin 8) (r c : Fin 2048) : x (ix3 b r c) = entry (P x) b r c 1 1 := by
  unfold entry
  refine (pad_apply_of_inside ![0, 1, 1] ![0, 1, 1] ![0, 0, 0] x _ pads_S8x2048x2048_S8x2050x2050_000_110_110 h_S_ _ (ix3 b r c) fun a => ?_).symm
  match a with
  | ⟨0, _⟩ => show b.val = 0 + b.val * (0 + 1); omega
  | ⟨1, _⟩ => show r.val + 1 = 1 + r.val * (0 + 1); omega
  | ⟨2, _⟩ => show c.val + 1 = 1 + c.val * (0 + 1); omega

/-- The halved column difference array at (b, r, c). -/
theorem gradX_apply (b : Fin 8) (r c : Fin 2048) :
    val_main_v13 (F := Ideal) x (ix3 b r c) = gradX (entry (P x) b r c 1 0) (entry (P x) b r c 1 2) := by
  rw [val_main_v13_apply, val_main_v12_apply, val_main_cst_0_apply, val_main_v11_apply, right_apply, left_apply]; rfl

/-- The halved row difference array at (b, r, c). -/
theorem gradY_apply (b : Fin 8) (r c : Fin 2048) :
    val_main_v16 (F := Ideal) x (ix3 b r c) = gradY (entry (P x) b r c 0 1) (entry (P x) b r c 2 1) := by
  rw [val_main_v16_apply, val_main_v15_apply, val_main_cst_1_apply, val_main_v14_apply, down_apply, up_apply]; rfl

/-- **The reference's result is the interleaved features of its padded field.** -/
theorem reference_eq : val_main_v29 (F := Ideal) x = interleaved (P x) := by
  funext i
  obtain ⟨b, r, c, k, rfl⟩ : ∃ (b : Fin 8) (r c : Fin 2048) (k : Fin 5), i = ix4 b r c k := ⟨i 0, i 1, i 2, i 3, eq_ix4 i⟩
  rw [interleaved_ix4]
  unfold val_main_v29
  rw [join_apply]
  unfold featureAt
  match k with
  | ⟨0, _⟩ =>
    show val_main_v24 (F := Ideal) x (ix4 b r c (0 : Fin 1)) = _
    rw [val_main_v24_apply, unit_axis_idx0, val_main_v10_apply, val_main_v7_apply, val_main_v6_apply, val_main_v5_apply,
      val_main_v9_apply, val_main_v8_apply, val_main_cst_apply, up_apply, down_apply, left_apply, right_apply,
      centre_apply x b r c]
    rfl
  | ⟨1, _⟩ =>
    show val_main_v25 (F := Ideal) x (ix4 b r c (0 : Fin 1)) = _
    rw [val_main_v25_apply, unit_axis_idx1, gradX_apply]; rfl
  | ⟨2, _⟩ =>
    show val_main_v26 (F := Ideal) x (ix4 b r c (0 : Fin 1)) = _
    rw [val_main_v26_apply, unit_axis_idx2, gradY_apply]; rfl
  | ⟨3, _⟩ =>
    show val_main_v27 (F := Ideal) x (ix4 b r c (0 : Fin 1)) = _
    rw [val_main_v27_apply, unit_axis_idx3, val_main_v17_apply, centre_apply x b r c]; rfl
  | ⟨4, _⟩ =>
    show val_main_v28 (F := Ideal) x (ix4 b r c (0 : Fin 1)) = _
    rw [val_main_v28_apply, unit_axis_idx4, val_main_v23_apply, val_main_v22_apply, val_main_v20_apply, val_main_v18_apply,
      val_main_v19_apply, gradX_apply, gradY_apply, val_main_v21_apply, val_main_cst_2_apply]
    rfl

end Cert.ReferenceIdeal.RefValue

end
-- ==== Proof.lean ====
/-
  Five spatial features of a field — the five-point Laplacian, the two halved central differences, the square and the
  regularised gradient magnitude — computed by a tiled kernel and by a whole-array reference, over the extended reals.

  Both programs pad the field `u` : (8, 2048, 2048) by one zero on each side of the two spatial axes. The reference
  takes four shifted slices of the padded field `P`, combines them pointwise and joins the five features along a new
  innermost axis: entry (b, r, c, k) of its result is feature `k` of the five entries of `P` around (b, r+1, c+1)
  (`RefValue.reference_eq`; the field itself is the centre entry of its pad). The kernel visits 8 x 32 grid points;
  point (b, h) loads rows 64 h .. 64 h + 65 of batch `b` of `P`, computes the same five features of the same five
  entries in the same order of operations, and writes them as five planes side by side into rows 64 h .. 64 h + 63 of
  batch `b` of its output (`RegionValue.flushed_eq`); the blocks tile the output (`RegionValue.region_result`), and
  the host then reads a row of planes as (plane, column) and exchanges the two axes (`Stencil.relayout`). So both
  results are `Stencil.interleaved P` of one and the same padded field: no law of arithmetic is used, only where each
  entry is read, and the inputs' finiteness is never needed. The three frames are the programs' runs with the value
  dropped; the idealisation rewrote nothing.
-/
import proofs.«137811_j65764539236415_2_alg».proof.Defs
import proofs.«137811_j65764539236415_2_alg».proof.Proof.Gen.Kernel
import proofs.«137811_j65764539236415_2_alg».proof.Proof.Gen.Kernel.Skeleton
import proofs.«137811_j65764539236415_2_alg».proof.Proof.Gen.Kernel.Launch
import proofs.«137811_j65764539236415_2_alg».proof.Proof.Gen.Kernel.Points
import proofs.«137811_j65764539236415_2_alg».proof.Proof.Gen.Kernel.Frame
import proofs.«137811_j65764539236415_2_alg».proof.Proof.Gen.KernelIdeal
import proofs.«137811_j65764539236415_2_alg».proof.Proof.Gen.KernelIdeal.Skeleton
import proofs.«137811_j65764539236415_2_alg».proof.Proof.Gen.KernelIdeal.Launch
import proofs.«137811_j65764539236415_2_alg».proof.Proof.Gen.KernelIdeal.Points
import proofs.«137811_j65764539236415_2_alg».proof.Proof.Gen.KernelIdeal.Frame
import proofs.«137811_j65764539236415_2_alg».proof.Proof.Gen.ReferenceIdeal
import proofs.«137811_j65764539236415_2_alg».proof.Proof.Gen.Pre_finite_inputs
import proofs.«137811_j65764539236415_2_alg».proof.Proof.Gen.ReferenceIdeal.Run
import proofs.«137811_j65764539236415_2_alg».proof.Proof.Gen.ReferenceIdeal.Read
import proofs.«137811_j65764539236415_2_alg».proof.Proof.KernelRun
import proofs.«137811_j65764539236415_2_alg».proof.Proof.RefFeatures
import Idealize.ShloMosaic.Adequacy
import Idealize.ShloMosaic.Init

noncomputable section

namespace Cert.Proof

open Idealize.ShloMosaic Idealize.SL.Sem

/-- The word-level kernel program runs and keeps its argument. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its argument: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- From arguments that agree, both programs end at the interleaved features of the same padded field. -/
theorem algebraic : Cert.algebraic_KernelIdeal_ReferenceIdeal := by
  intro m ρ m' ρ' _ hagree
  refine ⟨fun c => Cert.Stencil.interleaved (Cert.KernelIdeal.RegionValue.P m c), Cert.KernelIdeal.ProgramValue.run m ρ, ?_⟩
  refine (θ_run Cert.ReferenceIdeal.defs _ _).mono (fun _ h c => ⟨(h c).1.trans ?_, (h c).2⟩)
    (Cert.ReferenceIdeal.Value.run (F := Ideal) m' ρ')
  show _ = Cert.Stencil.interleaved (Cert.KernelIdeal.RegionValue.P m c)
  rw [Cert.ReferenceIdeal.Read.val_main_v29_eq, Cert.ReferenceIdeal.RefValue.reference_eq, hagree c,
    Cert.KernelIdeal.ProgramValue.padded_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
